-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x1024 .f32) (main_arg5 : FVec F S1024x512 .f32) (main_arg6 : FVec F S1x512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  main_v33

def fn {F : FTy → Type} [FloatOps F] (main_arg0 : FVec F S16384x512 .f32) (main_arg1 : FVec F S512x1024 .f32) (main_arg2 : FVec F S1x1024 .f32) (main_arg3 : FVec F S1024x1024 .f32) (main_arg4 : FVec F S1x1024 .f32) (main_arg5 : FVec F S1024x512 .f32) (main_arg6 : FVec F S1x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16384x512 : Shape := ⟨2, ![16384, 512]⟩
abbrev S512x1024 : Shape := ⟨2, ![512, 1024]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩
abbrev S2048x512 : Shape := ⟨2, ![2048, 512]⟩
abbrev S2048x1024 : Shape := ⟨2, ![2048, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S1024x512, .f32⟩
  | .hbm, ⟨6, _⟩ => ⟨S1x512, .f32⟩
  | .hbm, ⟨7, _⟩ => ⟨S512x1024, .bf16⟩
  | .hbm, ⟨8, _⟩ => ⟨S1024x1024, .bf16⟩
  | .hbm, ⟨9, _⟩ => ⟨S1024x512, .bf16⟩
  | .hbm, ⟨10, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  dot_S2048x512_S512x1024_S2048x1024_1_0_0_1_n_n_wf : DotDims.WF S2048x512 S512x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S16384x512.size a
  hwx0_7 : ∀ i : grid0.Coords, EltTy.bits .f32 = 32 ∨ (Rect.block (s := S16384x512) S2048x512.size (cc0_transform_7 i) (hinb0_7 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩
abbrev S256x512 : Shape := ⟨2, ![256, 512]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S1024x512, .f32⟩
  | .hbm, ⟨6, _⟩ => ⟨S1x512, .f32⟩
  | .hbm, ⟨7, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S256x512_S256x512_0_0 : ∀ a, (![0, 0] : Fin 2 → Nat) a + S256x512.size a ≤ S256x512.size a
  h_S256x512 : 0 < S256x512.numel
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S16384x512.size a
  hwx0_7 : ∀ i : grid0.Coords, EltTy.bits .f32 = 32 ∨ (Rect.block (s := S16384x512) S256x512.size (cc0_transform_7 i) (hinb0_7 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.MlpRows.lean ====
/-
  A three-layer perceptron, row by row, over the extended reals.

  For a row x of length K, a weight matrix W of shape [K, M] and a bias row b of shape [1, M], one dense layer sends x to
  the row  q ↦ Σₖ x(k) · W(k, q) + b(0, q).  The network is  dense ∘ relu ∘ dense ∘ relu ∘ dense  with widths
  512 → 1024 → 1024 → 512, where relu clamps each entry below at the value of the zero word.

  A tile of R rows pushed through "matrix product into the zero accumulator, add the bias row broadcast down the tile"
  is, at entry (p, q), the dense layer of the tile's row p at q — whatever R is. So every output row of a tiled
  evaluation depends only on the matching input row, and two evaluations that tile the rows differently (and change
  number formats in between, which is the identity on extended reals) compute the same array.
-/
import Idealize.ShloMosaic.PureOps.Ideal
import Idealize.ShloMosaic.PureOps.Ideal.Laws
import Idealize.ShloMosaic.Lib.ValueIdx
import Idealize.ShloMosaic.Lib.Pipeline.Value
import proofs.«174243_g2000104211638902_pallasbulk_653_6_alg».proof.Proof.LibMatmulRowsByCols

noncomputable section

namespace Cert.MlpRows

open Idealize.ShloMosaic Idealize.ShloMosaic.ValueIdx

variable {R K M : Nat}

/-- One dense layer applied to one row: q ↦ Σₖ x(k) · W(k, q) + b(0, q). -/
def dense (x : Fin K → EReal) (W : (⟨2, ![K, M]⟩ : Shape).Idx → EReal) (b : (⟨2, ![1, M]⟩ : Shape).Idx → EReal) :
    Fin M → EReal :=
  fun q => (∑ k : Fin K, x k * W (ix2 k q)) + b (ix2 (0 : Fin 1) q)

/-- The rectifier on a row: each entry clamped below at the value of the zero word. -/
def relu (v : Fin M → EReal) : Fin M → EReal :=
  fun q => max (v q) (Scalar.ofBits (F := Ideal) .f32 0x00000000#32)

/-- The network on one row: 512 → 1024 → 1024 → 512, rectified after the first two layers. -/
def mlpRow (x : Fin 512 → EReal)
    (w0 : (⟨2, ![512, 1024]⟩ : Shape).Idx → EReal) (b0 : (⟨2, ![1, 1024]⟩ : Shape).Idx → EReal)
    (w1 : (⟨2, ![1024, 1024]⟩ : Shape).Idx → EReal) (b1 : (⟨2, ![1, 1024]⟩ : Shape).Idx → EReal)
    (w2 : (⟨2, ![1024, 512]⟩ : Shape).Idx → EReal) (b2 : (⟨2, ![1, 512]⟩ : Shape).Idx → EReal) : Fin 512 → EReal :=
  dense (relu (dense (relu (dense x w0 b0)) w1 b1)) w2 b2

/-- The network on a whole array of rows: entry (r, n) is the network of row r at n. -/
def mlp {R : Nat} (x : (⟨2, ![R, 512]⟩ : Shape).Idx → EReal)
    (w0 : (⟨2, ![512, 1024]⟩ : Shape).Idx → EReal) (b0 : (⟨2, ![1, 1024]⟩ : Shape).Idx → EReal)
    (w1 : (⟨2, ![1024, 1024]⟩ : Shape).Idx → EReal) (b1 : (⟨2, ![1, 1024]⟩ : Shape).Idx → EReal)
    (w2 : (⟨2, ![1024, 512]⟩ : Shape).Idx → EReal) (b2 : (⟨2, ![1, 512]⟩ : Shape).Idx → EReal) :
    (⟨2, ![R, 512]⟩ : Shape).Idx → EReal :=
  fun i => mlpRow (fun l => x (ix2 (i 0) l)) w0 b0 w1 b1 w2 b2 (i 1)

/-- A bias row broadcast down a tile of R rows reads, at (p, q), the row's entry q. -/
theorem biasRow_apply {α : Type} (b : (⟨2, ![1, M]⟩ : Shape).Idx → α)
    (h : (⟨2, ![1, M]⟩ : Shape).Broadcasts ⟨2, ![R, M]⟩) (p : Fin R) (q : Fin M) :
    broadcastTo ⟨2, ![R, M]⟩ b h (ix2 p q) = b (ix2 (0 : Fin 1) q) := by
  refine broadcastTo_apply b h (ix2 p q) (ix2 (0 : Fin 1) q) fun a => ?_
  match a with
  | ⟨0, _⟩ => exact (if_pos rfl).symm
  | ⟨1, _⟩ =>
    show q.val = if M = 1 then 0 else q.val
    split_ifs with hM
    · have := q.isLt; omega
    · rfl

/-- One layer on a tile: the product into the zero accumulator plus the broadcast bias row, at entry (p, q), is the
    dense layer of the tile's row p at q. -/
theorem layer_apply (d : DotDims ⟨2, ![R, K]⟩ ⟨2, ![K, M]⟩ ⟨2, ![R, M]⟩) (hd : Cert.RowsByCols.Is d)
    (prec : Option ContractPrecision) {φ₁ φ₂ : FTy}
    (A : FVec Ideal ⟨2, ![R, K]⟩ φ₁) (W : FVec Ideal ⟨2, ![K, M]⟩ φ₂) (b : FVec Ideal ⟨2, ![1, M]⟩ .f32)
    (hb : (⟨2, ![1, M]⟩ : Shape).Broadcasts ⟨2, ![R, M]⟩) (p : Fin R) (q : Fin M) :
    addf (matmul d prec A W (constant (F := Ideal) ⟨2, ![R, M]⟩ .f32 0x00000000#32)) (broadcastTo ⟨2, ![R, M]⟩ b hb) (ix2 p q)
      = dense (fun k => A (ix2 p k)) W b q := by
  rw [addf_apply, Cert.RowsByCols.matmul_zero_apply d hd prec A W p q, biasRow_apply b hb p q]
  rfl

/-- Three layers on a tile of R rows. The second and third layers' left operands are, entry by entry, the rectified
    output of the layer before (however their number format is spelt: that is the hypothesis' business). Then the last
    layer's output at (p, q) is the network of the tile's row p at q. -/
theorem stack_apply
    (d0 : DotDims ⟨2, ![R, 512]⟩ ⟨2, ![512, 1024]⟩ ⟨2, ![R, 1024]⟩) (hd0 : Cert.RowsByCols.Is d0)
    (d1 : DotDims ⟨2, ![R, 1024]⟩ ⟨2, ![1024, 1024]⟩ ⟨2, ![R, 1024]⟩) (hd1 : Cert.RowsByCols.Is d1)
    (d2 : DotDims ⟨2, ![R, 1024]⟩ ⟨2, ![1024, 512]⟩ ⟨2, ![R, 512]⟩) (hd2 : Cert.RowsByCols.Is d2)
    (prec : Option ContractPrecision) {φa0 φa1 φa2 φw0 φw1 φw2 : FTy}
    (A0 : FVec Ideal ⟨2, ![R, 512]⟩ φa0) (W0 : FVec Ideal ⟨2, ![512, 1024]⟩ φw0) (b0 : FVec Ideal ⟨2, ![1, 1024]⟩ .f32)
    (A1 : FVec Ideal ⟨2, ![R, 1024]⟩ φa1) (W1 : FVec Ideal ⟨2, ![1024, 1024]⟩ φw1) (b1 : FVec Ideal ⟨2, ![1, 1024]⟩ .f32)
    (A2 : FVec Ideal ⟨2, ![R, 1024]⟩ φa2) (W2 : FVec Ideal ⟨2, ![1024, 512]⟩ φw2) (b2 : FVec Ideal ⟨2, ![1, 512]⟩ .f32)
    (hb0 : (⟨2, ![1, 1024]⟩ : Shape).Broadcasts ⟨2, ![R, 1024]⟩) (hb1 : (⟨2, ![1, 1024]⟩ : Shape).Broadcasts ⟨2, ![R, 1024]⟩)
    (hb2 : (⟨2, ![1, 512]⟩ : Shape).Broadcasts ⟨2, ![R, 512]⟩)
    (hA1 : ∀ (p : Fin R) (j : Fin 1024), A1 (ix2 p j)
      = max (addf (matmul d0 prec A0 W0 (constant (F := Ideal) ⟨2, ![R, 1024]⟩ .f32 0x00000000#32)) (broadcastTo ⟨2, ![R, 1024]⟩ b0 hb0) (ix2 p j))
          (Scalar.ofBits (F := Ideal) .f32 0x00000000#32))
    (hA2 : ∀ (p : Fin R) (j : Fin 1024), A2 (ix2 p j)
      = max (addf (matmul d1 prec A1 W1 (constant (F := Ideal) ⟨2, ![R, 1024]⟩ .f32 0x00000000#32)) (broadcastTo ⟨2, ![R, 1024]⟩ b1 hb1) (ix2 p j))
          (Scalar.ofBits (F := Ideal) .f32 0x00000000#32))
    (p : Fin R) (q : Fin 512) :
    addf (matmul d2 prec A2 W2 (constant (F := Ideal) ⟨2, ![R, 512]⟩ .f32 0x00000000#32)) (broadcastTo ⟨2, ![R, 512]⟩ b2 hb2) (ix2 p q)
      = mlpRow (fun l => A0 (ix2 p l)) W0 b0 W1 b1 W2 b2 q := by
  refine (layer_apply d2 hd2 prec A2 W2 b2 hb2 p q).trans ?_
  unfold mlpRow
  refine congrArg (fun a => dense a W2 b2 q) (funext fun k => ?_)
  rw [hA2 p k, layer_apply d1 hd1 prec A1 W1 b1 hb1 p k]
  show max (dense (fun j => A1 (ix2 p j)) W1 b1 k) _ = max (dense (relu (dense (fun l => A0 (ix2 p l)) W0 b0)) W1 b1 k) _
  refine congrArg (fun a => max (dense a W1 b1 k) (Scalar.ofBits (F := Ideal) .f32 0x00000000#32)) (funext fun j => ?_)
  rw [hA1 p j, layer_apply d0 hd0 prec A0 W0 b0 hb0 p j]
  rfl

/-- The network of an array of rows at (r, q) depends on the array only through its row r. -/
theorem mlp_row_congr {R : Nat} (X : (⟨2, ![R, 512]⟩ : Shape).Idx → EReal) (x : Fin 512 → EReal)
    (w0 : (⟨2, ![512, 1024]⟩ : Shape).Idx → EReal) (b0 : (⟨2, ![1, 1024]⟩ : Shape).Idx → EReal)
    (w1 : (⟨2, ![1024, 1024]⟩ : Shape).Idx → EReal) (b1 : (⟨2, ![1, 1024]⟩ : Shape).Idx → EReal)
    (w2 : (⟨2, ![1024, 512]⟩ : Shape).Idx → EReal) (b2 : (⟨2, ![1, 512]⟩ : Shape).Idx → EReal)
    (r : Fin R) (q : Fin 512) (h : ∀ l : Fin 512, x l = X (ix2 r l)) :
    mlpRow x w0 b0 w1 b1 w2 b2 q = mlp X w0 b0 w1 b1 w2 b2 (ix2 r q) := by
  unfold mlp
  exact congrArg (fun a => mlpRow a w0 b0 w1 b1 w2 b2 q) (funext h)

end Cert.MlpRows

end
-- ==== Proof.KernelTiles.lean ====
/-
  The tiled evaluation with 8 tiles of 2048 rows, read as one array.

  Grid point t stages rows 2048·t … 2048·t + 2047 of the activations and the whole of each weight and bias array, and
  writes back rows 2048·t … 2048·t + 2047 of the result. Its body is three "product, add bias, rectify" layers on the
  tile (the last without the rectifier); the weights reach it through a change of number format, which is the identity
  on extended reals. So the block written at point t is block t of the network applied to the whole array of rows, the
  eight blocks cover all 16384 rows, and the result array ends holding the network of the argument arrays.
-/
import proofs.«174243_g2000104211638902_pallasbulk_653_6_alg».proof.Proof.Gen.KernelIdeal.Value
import proofs.«174243_g2000104211638902_pallasbulk_653_6_alg».proof.Proof.MlpRows
import Idealize.ShloMosaic.Lib.Pipeline.Value
import Idealize.ShloMosaic.Lib.StableHlo.Run
import Idealize.ShloMosaic.Lib.ValueIdx

noncomputable section

namespace Cert.KernelIdeal.Tiles

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.MlpRows

variable (m : (ℓ : Loc nD τ sig) → Buf (Elt Ideal) ℓ) (ρ : Dev nD → PrngReg)

theorem hz : (![0, 0] : Fin 2 → Nat) = fun _ => 0 := funext fun a => by fin_cases a <;> rfl

/-- The body's stored value at entry (p, q) of the tile is the network of the tile's row p at q. -/
theorem pay_apply (x0 : Vec Ideal S2048x512 .f32) (x1 : Vec Ideal S512x1024 .bf16) (x2 : Vec Ideal S1x1024 .f32)
    (x3 : Vec Ideal S1024x1024 .bf16) (x4 : Vec Ideal S1x1024 .f32) (x5 : Vec Ideal S1024x512 .bf16) (x6 : Vec Ideal S1x512 .f32)
    (p : Fin 2048) (q : Fin 512) :
    k0_pay1 (F := Ideal) x0 x1 x2 x3 x4 x5 x6 (ix2 p q) = mlpRow (fun l => x0 (ix2 p l)) x1 x2 x3 x4 x5 x6 q := by
  unfold k0_pay1
  refine (stack_apply _ ⟨rfl, rfl, rfl, rfl, rfl, rfl⟩ _ ⟨rfl, rfl, rfl, rfl, rfl, rfl⟩ _ ⟨rfl, rfl, rfl, rfl, rfl, rfl⟩ none
    _ _ _ _ _ _ _ _ _ _ _ _ (fun _ _ => rfl) (fun _ _ => rfl) p q).trans ?_
  rw [shapeCast_self x1, shapeCast_self x3, shapeCast_self x5]
  rfl

/-- The printed index maps over the 8 grid points: the activations' and the result's windows move down one tile of rows
    per point; every weight and bias window stays on its whole array. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 8 := by have h := t.isLt; have hN : cfg0.N = 8 := N_0; omega

/-- Row p of the activations' block at point t is row 2048·t + p of the array. -/
theorem iblk0_apply (c : Dev nD) (t : Fin cfg0.N) (p : Fin 2048) (l : Fin 512) (r : Fin 16384) (hr : r.val = t.val * 2048 + p.val) :
    (iblk m c 0 t : Vec Ideal S2048x512 .f32) (ix2 p l) = (V m c main_arg0 : S16384x512.Idx → EReal) (ix2 r l) := by
  obtain ⟨e0, e1, -⟩ := idx_facts t
  show V m c main_arg0 (((cfg0.win 0).blk t).view.emb (ix2 p l)) = V m c main_arg0 (ix2 r l)
  refine congrArg (V m c main_arg0) (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * l.val = l.val; rw [e1]; omega

/-- A weight's or bias's block is the whole array at every point: windows 1 to 6. -/
theorem iblk1_eq (c : Dev nD) (t : Fin cfg0.N) : (iblk m c 1 t : Vec Ideal S512x1024 .bf16) = V m c main_v0 := by
  obtain ⟨-, -, -, -, e0, e1, -⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 512 + 1 * (y 0).val = (y 0).val; rw [e0]; omega
  | ⟨1, _⟩ => show win0_1.index t (1 : Fin 2) * 1024 + 1 * (y 1).val = (y 1).val; rw [e1]; omega
theorem iblk2_eq (c : Dev nD) (t : Fin cfg0.N) : (iblk m c 2 t : Vec Ideal S1x1024 .f32) = V m c main_arg2 := by
  obtain ⟨-, -, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega
theorem iblk3_eq (c : Dev nD) (t : Fin cfg0.N) : (iblk m c 3 t : Vec Ideal S1024x1024 .bf16) = V m c main_v1 := by
  obtain ⟨-, -, -, -, -, -, -, -, e0, e1, -⟩ := idx_facts t
  funext y
  show V m c main_v1 (((cfg0.win 3).blk t).view.emb y) = V m c main_v1 y
  refine congrArg (V m c main_v1) (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega
theorem iblk4_eq (c : Dev nD) (t : Fin cfg0.N) : (iblk m c 4 t : Vec Ideal S1x1024 .f32) = V m c main_arg4 := by
  obtain ⟨-, -, -, -, -, -, -, -, -, -, e0, e1, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega
theorem iblk5_eq (c : Dev nD) (t : Fin cfg0.N) : (iblk m c 5 t : Vec Ideal S1024x512 .bf16) = V m c main_v2 := by
  obtain ⟨-, -, -, -, -, -, -, -, -, -, -, -, e0, e1, -⟩ := idx_facts t
  funext y
  show V m c main_v2 (((cfg0.win 5).blk t).view.emb y) = V m c main_v2 y
  refine congrArg (V m c main_v2) (funext fun a => Fin.ext ?_)
  match a with
  | ⟨0, _⟩ => show win0_5.index t (0 : Fin 2) * 1024 + 1 * (y 0).val = (y 0).val; rw [e0]; omega
  | ⟨1, _⟩ => show win0_5.index t (1 : Fin 2) * 512 + 1 * (y 1).val = (y 1).val; rw [e1]; omega
theorem iblk6_eq (c : Dev nD) (t : Fin cfg0.N) : (iblk m c 6 t : Vec Ideal S1x512 .f32) = V m c main_arg6 := by
  obtain ⟨-, -, -, -, -, -, -, -, -, -, -, -, -, -, e0, e1⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

/-- The three weight arrays the region finds are the arguments after a change of number format: the same extended reals. -/
theorem V_v0 (c : Dev nD) : (V m c main_v0 : S512x1024.Idx → EReal) = (m ((c : Thread nD τ).loc main_arg1) : S512x1024.Idx → EReal) := by
  dsimp only [Gen.V, Gen.hostOps0]; after_results; rfl
theorem V_v1 (c : Dev nD) : (V m c main_v1 : S1024x1024.Idx → EReal) = (m ((c : Thread nD τ).loc main_arg3) : S1024x1024.Idx → EReal) := by
  dsimp only [Gen.V, Gen.hostOps0]; after_results; rfl
theorem V_v2 (c : Dev nD) : (V m c main_v2 : S1024x512.Idx → EReal) = (m ((c : Thread nD τ).loc main_arg5) : S1024x512.Idx → EReal) := by
  dsimp only [Gen.V, Gen.hostOps0]; after_results; rfl

/-- The network of the arrays the region finds. -/
abbrev net (c : Dev nD) : S16384x512.Idx → EReal :=
  mlp (V m c main_arg0) (V m c main_v0) (V m c main_arg2) (V m c main_v1) (V m c main_arg4) (V m c main_v2) (V m c main_arg6)

/-- WHAT POINT t WRITES BACK is block t of the network of the arrays the region finds. -/
theorem flushed_eq (c : Dev nD) (t : Fin cfg0.N) :
    (dats m 0 c).flushed 7 t = ((cfg0.win 7).blk t).view.read (Elt Ideal) (net m c) := by
  rw [Value.flushed7]
  unfold out0_7
  rw [View.canon_unit_zero hz]
  simp only [View.ld_unit_zero (S := S2048x512) hz, View.ld_unit_zero (S := S512x1024) hz, View.ld_unit_zero (S := S1x1024) hz,
    View.ld_unit_zero (S := S1024x1024) hz, View.ld_unit_zero (S := S1024x512) hz, View.ld_unit_zero (S := S1x512) hz]
  rw [iblk1_eq, iblk2_eq, iblk3_eq, iblk4_eq, iblk5_eq, iblk6_eq]
  obtain ⟨-, -, e0, e1, -⟩ := idx_facts t
  have ht := t_lt t
  funext j
  obtain ⟨p, q, rfl⟩ : ∃ (p : Fin 2048) (q : Fin 512), j = ix2 p q := ⟨j 0, j 1, eq_ix2 j⟩
  show k0_pay1 (iblk m c 0 t) (V m c main_v0) (V m c main_arg2) (V m c main_v1) (V m c main_arg4) (V m c main_v2) (V m c main_arg6) (ix2 p q)
    = net m c (((cfg0.win 7).blk t).view.emb (ix2 p q))
  have hemb : ((cfg0.win 7).blk t).view.emb (ix2 p q) = (ix2 (⟨t.val * 2048 + p.val, by have := p.isLt; omega⟩ : Fin 16384) q : S16384x512.Idx) := by
    funext a; apply Fin.ext
    match a with
    | ⟨0, _⟩ => show win0_7.index t (0 : Fin 2) * 2048 + 1 * p.val = t.val * 2048 + p.val; rw [e0]; omega
    | ⟨1, _⟩ => show win0_7.index t (1 : Fin 2) * 512 + 1 * q.val = q.val; rw [e1]; omega
  rw [hemb]
  refine (pay_apply _ _ _ _ _ _ _ p q).trans ?_
  exact mlp_row_congr _ _ _ _ _ _ _ _ _ q fun l => iblk0_apply m c t p l _ rfl

/-- An index of the result array is in point t's block iff each coordinate is in the block's range on its axis. -/
theorem mem_blk (t : Fin cfg0.N) (i : S16384x512.Idx) :
    i ∈ ((cfg0.win 7).blk t).view.set ↔ ∀ a : Fin 2, win0_7.index t a * S2048x512.size a ≤ (i a).val ∧ (i a).val < win0_7.index t a * S2048x512.size a + S2048x512.size a := by
  show i ∈ ((View.whole main_v3).slice (win0_7.rect t)).set ↔ _
  rw [View.set_slice_whole, Rect.mem_set_unit]
  exact Iff.rfl

/-- Every row r lies in the block of point r / 2048. -/
theorem cover (i : S16384x512.Idx) : ∃ t : Fin cfg0.N, (cfg0.win 7).flush t = true ∧ i ∈ ((cfg0.win 7).blk t).view.set := by
  have hi0 : (i 0).val < 16384 := idx2_lt0 i
  have hi1 : (i 1).val < 512 := idx2_lt1 i
  have hN : cfg0.N = 8 := N_0
  let t : Fin cfg0.N := ⟨(i 0).val / 2048, by omega⟩
  obtain ⟨-, -, e0, e1, -⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; rw [e0, ht]; omega
  | ⟨1, _⟩ => show win0_7.index t (1 : Fin 2) * 512 ≤ (i 1).val ∧ (i 1).val < win0_7.index t (1 : Fin 2) * 512 + 512; rw [e1]; omega

/-- THE RESULT ARRAY after the run is the network of the argument arrays. -/
theorem final (c : Dev nD) : (dats m 0 c).arrAt 7 cfg0.N =
    mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine ((dats m 0 c).arrAt_eq_of_cover 7 (net m c) (fun t _ => flushed_eq m c t) cover).trans ?_
  unfold net
  rw [V_v0, V_v1, V_v2, V_main_arg0, V_main_arg2, V_main_arg4, V_main_arg6]

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v3) =
        mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Tiles

end
-- ==== Proof.ReferenceTiles.lean ====
/-
  The tiled evaluation with 64 tiles of 256 rows, read as one array.

  Grid point t stages rows 256·t … 256·t + 255 of the activations and the whole of each weight and bias array, and writes
  back rows 256·t … 256·t + 255 of the result. Its body is the same three layers on the tile. So the block written at
  point t is block t of the network applied to the whole array of rows, the sixty-four blocks cover all 16384 rows, and
  the result array ends holding the network of the argument arrays.
-/
import proofs.«174243_g2000104211638902_pallasbulk_653_6_alg».proof.Proof.Gen.ReferenceIdeal.Value
import proofs.«174243_g2000104211638902_pallasbulk_653_6_alg».proof.Proof.MlpRows
import Idealize.ShloMosaic.Lib.Pipeline.Value
import Idealize.ShloMosaic.Lib.ValueIdx

noncomputable section

namespace Cert.ReferenceIdeal.Tiles

open Cert.ReferenceIdeal Cert.ReferenceIdeal.Gen Cert.ReferenceIdeal.Value
open Idealize.ShloMosaic Idealize.ShloMosaic.TcCoe Idealize.ShloMosaic.ValueIdx Idealize.SL.Sem
open Idealize.ShloMosaic.Pipeline (Dat)
open Cert.MlpRows

variable (m : (ℓ : Loc nD τ sig) → Buf (Elt Ideal) ℓ) (ρ : Dev nD → PrngReg)

theorem hz : (![0, 0] : Fin 2 → Nat) = fun _ => 0 := funext fun a => by fin_cases a <;> rfl

/-- The body's stored value at entry (p, q) of the tile is the network of the tile's row p at q. -/
theorem pay_apply (x0 : Vec Ideal S256x512 .f32) (x1 : Vec Ideal S512x1024 .f32) (x2 : Vec Ideal S1x1024 .f32)
    (x3 : Vec Ideal S1024x1024 .f32) (x4 : Vec Ideal S1x1024 .f32) (x5 : Vec Ideal S1024x512 .f32) (x6 : Vec Ideal S1x512 .f32)
    (p : Fin 256) (q : Fin 512) :
    k0_pay1 (F := Ideal) x0 x1 x2 x3 x4 x5 x6 (ix2 p q) = mlpRow (fun l => x0 (ix2 p l)) x1 x2 x3 x4 x5 x6 q := by
  unfold k0_pay1
  exact stack_apply _ ⟨rfl, rfl, rfl, rfl, rfl, rfl⟩ _ ⟨rfl, rfl, rfl, rfl, rfl, rfl⟩ _ ⟨rfl, rfl, rfl, rfl, rfl, rfl⟩ none
    _ _ _ _ _ _ _ _ _ _ _ _ (fun _ _ => rfl) (fun _ _ => rfl) p q

/-- The printed index maps over the 64 grid points: the activations' and the result's windows move down one tile of rows
    per point; every weight and bias window stays on its whole array. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 64 := by have h := t.isLt; have hN : cfg0.N = 64 := N_0; omega

/-- Row p of the activations' block at point t is row 256·t + p of the array. -/
theorem iblk0_apply (c : Dev nD) (t : Fin cfg0.N) (p : Fin 256) (l : Fin 512) (r : Fin 16384) (hr : r.val = t.val * 256 + p.val) :
    (iblk m c 0 t : Vec Ideal S256x512 .f32) (ix2 p l) = (V m c main_arg0 : S16384x512.Idx → EReal) (ix2 r l) := by
  obtain ⟨e0, e1, -⟩ := idx_facts t
  show V m c main_arg0 (((cfg0.win 0).blk t).view.emb (ix2 p l)) = V m c main_arg0 (ix2 r l)
  refine congrArg (V m c main_arg0) (funext fun a => Fin.ext ?_)
  match a with
  | ⟨0, _⟩ => show win0_0.index t (0 : Fin 2) * 256 + 1 * p.val = r.val; rw [e0, hr]; omega
  | ⟨1, _⟩ => show win0_0.index t (1 : Fin 2) * 512 + 1 * l.val = l.val; rw [e1]; omega

/-- A weight's or bias's block is the whole array at every point: windows 1 to 6. -/
theorem iblk1_eq (c : Dev nD) (t : Fin cfg0.N) : (iblk m c 1 t : Vec Ideal S512x1024 .f32) = V m c main_arg1 := by
  have e0 : win0_1.index t (0 : Fin 2) = 0 := (idx_facts t).2.2.2.2.1
  have e1 : win0_1.index t (1 : Fin 2) = 0 := (idx_facts t).2.2.2.2.2.1
  funext y
  show V m c main_arg1 (((cfg0.win 1).blk t).view.emb y) = V m c main_arg1 y
  refine congrArg (V m c main_arg1) (funext fun a => Fin.ext ?_)
  match a with
  | ⟨0, _⟩ => show win0_1.index t (0 : Fin 2) * 512 + 1 * (y 0).val = (y 0).val; rw [e0]; omega
  | ⟨1, _⟩ => show win0_1.index t (1 : Fin 2) * 1024 + 1 * (y 1).val = (y 1).val; rw [e1]; omega
theorem iblk2_eq (c : Dev nD) (t : Fin cfg0.N) : (iblk m c 2 t : Vec Ideal S1x1024 .f32) = V m c main_arg2 := by
  have e0 : win0_2.index t (0 : Fin 2) = 0 := (idx_facts t).2.2.2.2.2.2.1
  have e1 : win0_2.index t (1 : Fin 2) = 0 := (idx_facts t).2.2.2.2.2.2.2.1
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega
theorem iblk3_eq (c : Dev nD) (t : Fin cfg0.N) : (iblk m c 3 t : Vec Ideal S1024x1024 .f32) = V m c main_arg3 := by
  have e0 : win0_3.index t (0 : Fin 2) = 0 := (idx_facts t).2.2.2.2.2.2.2.2.1
  have e1 : win0_3.index t (1 : Fin 2) = 0 := (idx_facts t).2.2.2.2.2.2.2.2.2.1
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega
theorem iblk4_eq (c : Dev nD) (t : Fin cfg0.N) : (iblk m c 4 t : Vec Ideal S1x1024 .f32) = V m c main_arg4 := by
  have e0 : win0_4.index t (0 : Fin 2) = 0 := (idx_facts t).2.2.2.2.2.2.2.2.2.2.1
  have e1 : win0_4.index t (1 : Fin 2) = 0 := (idx_facts t).2.2.2.2.2.2.2.2.2.2.2.1
  funext y
  show V m c main_arg4 (((cfg0.win 4).blk t).view.emb y) = V m c main_arg4 y
  refine congrArg (V m c main_arg4) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega
theorem iblk5_eq (c : Dev nD) (t : Fin cfg0.N) : (iblk m c 5 t : Vec Ideal S1024x512 .f32) = V m c main_arg5 := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  funext y
  show V m c main_arg5 (((cfg0.win 5).blk t).view.emb y) = V m c main_arg5 y
  refine congrArg (V m c main_arg5) (funext fun a => Fin.ext ?_)
  match a with
  | ⟨0, _⟩ => show win0_5.index t (0 : Fin 2) * 1024 + 1 * (y 0).val = (y 0).val; rw [e0]; omega
  | ⟨1, _⟩ => show win0_5.index t (1 : Fin 2) * 512 + 1 * (y 1).val = (y 1).val; rw [e1]; omega
theorem iblk6_eq (c : Dev nD) (t : Fin cfg0.N) : (iblk m c 6 t : Vec Ideal S1x512 .f32) = V m c main_arg6 := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2
  funext y
  show V m c main_arg6 (((cfg0.win 6).blk t).view.emb y) = V m c main_arg6 y
  refine congrArg (V m c main_arg6) (funext fun a => Fin.ext ?_)
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

/-- The network of the arrays the region finds: the arguments as launched. -/
abbrev net (c : Dev nD) : S16384x512.Idx → EReal :=
  mlp (V m c main_arg0) (V m c main_arg1) (V m c main_arg2) (V m c main_arg3) (V m c main_arg4) (V m c main_arg5) (V m c main_arg6)

/-- WHAT POINT t WRITES BACK is block t of the network of the arrays the region finds. -/
theorem flushed_eq (c : Dev nD) (t : Fin cfg0.N) :
    (dats m 0 c).flushed 7 t = ((cfg0.win 7).blk t).view.read (Elt Ideal) (net m c) := by
  rw [Value.flushed7]
  unfold out0_7
  rw [View.canon_unit_zero hz]
  simp only [View.ld_unit_zero (S := S256x512) hz, View.ld_unit_zero (S := S512x1024) hz, View.ld_unit_zero (S := S1x1024) hz,
    View.ld_unit_zero (S := S1024x1024) hz, View.ld_unit_zero (S := S1024x512) hz, View.ld_unit_zero (S := S1x512) hz]
  rw [iblk1_eq, iblk2_eq, iblk3_eq, iblk4_eq, iblk5_eq, iblk6_eq]
  obtain ⟨-, -, e0, e1, -⟩ := idx_facts t
  have ht := t_lt t
  funext j
  obtain ⟨p, q, rfl⟩ : ∃ (p : Fin 256) (q : Fin 512), j = ix2 p q := ⟨j 0, j 1, eq_ix2 j⟩
  show k0_pay1 (iblk m c 0 t) (V m c main_arg1) (V m c main_arg2) (V m c main_arg3) (V m c main_arg4) (V m c main_arg5) (V m c main_arg6) (ix2 p q)
    = net m c (((cfg0.win 7).blk t).view.emb (ix2 p q))
  have hemb : ((cfg0.win 7).blk t).view.emb (ix2 p q) = (ix2 (⟨t.val * 256 + p.val, by have := p.isLt; omega⟩ : Fin 16384) q : S16384x512.Idx) := by
    funext a; apply Fin.ext
    match a with
    | ⟨0, _⟩ => show win0_7.index t (0 : Fin 2) * 256 + 1 * p.val = t.val * 256 + p.val; rw [e0]; omega
    | ⟨1, _⟩ => show win0_7.index t (1 : Fin 2) * 512 + 1 * q.val = q.val; rw [e1]; omega
  rw [hemb]
  refine (pay_apply _ _ _ _ _ _ _ p q).trans ?_
  exact mlp_row_congr _ _ _ _ _ _ _ _ _ q fun l => iblk0_apply m c t p l _ rfl

/-- An index of the result array is in point t's block iff each coordinate is in the block's range on its axis. -/
theorem mem_blk (t : Fin cfg0.N) (i : S16384x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v0).slice (win0_7.rect t)).set ↔ _
  rw [View.set_slice_whole, Rect.mem_set_unit]
  exact Iff.rfl

/-- Every row r lies in the block of point r / 256. -/
theorem cover (i : S16384x512.Idx) : ∃ t : Fin cfg0.N, (cfg0.win 7).flush t = true ∧ i ∈ ((cfg0.win 7).blk t).view.set := by
  have hi0 : (i 0).val < 16384 := idx2_lt0 i
  have hi1 : (i 1).val < 512 := idx2_lt1 i
  have hN : cfg0.N = 64 := N_0
  let t : Fin cfg0.N := ⟨(i 0).val / 256, by omega⟩
  obtain ⟨-, -, e0, e1, -⟩ := idx_facts t
  have ht : t.val = (i 0).val / 256 := rfl
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 512 ≤ (i 1).val ∧ (i 1).val < win0_7.index t (1 : Fin 2) * 512 + 512; rw [e1]; omega

/-- THE RESULT ARRAY after the run is the network of the argument arrays. -/
theorem final (c : Dev nD) : (dats m 0 c).arrAt 7 cfg0.N =
    mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) :=
  (dats m 0 c).arrAt_eq_of_cover 7 (net m c) (fun t _ => flushed_eq m c t) cover

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v0) =
        mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ReferenceIdeal.Tiles

end
-- ==== Proof.lean ====
/- The proof of `Cert.Claim`: a three-layer perceptron (512 → 1024 → 1024 → 512, rectified after the first two layers)
   evaluated on 16384 rows in tiles — 8 tiles of 2048 rows with the weights passed through a change of number format,
   against 64 tiles of 256 rows without one.

   Over the extended reals a change of number format is the identity, a matrix product into the zero accumulator is the
   plain contraction Σₖ a(p, k) · w(k, q), and the bias row is added to every row of the tile. So each output row is the
   network of the matching input row alone (Proof/MlpRows.lean), whatever the tile height: both programs' result arrays
   end holding one and the same function of the argument arrays (Proof/KernelTiles.lean, Proof/ReferenceTiles.lean), read
   off each program's run block by block. No algebraic law beyond this is used, so the finiteness of the inputs is never
   opened. The three frames are the programs' runs with the result dropped; nothing was rewritten between the printed
   kernel and its idealization, so that conjunct is trivial. -/
import proofs.«174243_g2000104211638902_pallasbulk_653_6_alg».proof.Defs
import proofs.«174243_g2000104211638902_pallasbulk_653_6_alg».proof.Proof.Gen.Kernel
import proofs.«174243_g2000104211638902_pallasbulk_653_6_alg».proof.Proof.Gen.Kernel.Skeleton
import proofs.«174243_g2000104211638902_pallasbulk_653_6_alg».proof.Proof.Gen.Kernel.Launch
import proofs.«174243_g2000104211638902_pallasbulk_653_6_alg».proof.Proof.Gen.Kernel.Points
import proofs.«174243_g2000104211638902_pallasbulk_653_6_alg».proof.Proof.Gen.Kernel.Frame
import proofs.«174243_g2000104211638902_pallasbulk_653_6_alg».proof.Proof.Gen.KernelIdeal
import proofs.«174243_g2000104211638902_pallasbulk_653_6_alg».proof.Proof.Gen.KernelIdeal.Skeleton
import proofs.«174243_g2000104211638902_pallasbulk_653_6_alg».proof.Proof.Gen.KernelIdeal.Launch
import proofs.«174243_g2000104211638902_pallasbulk_653_6_alg».proof.Proof.Gen.KernelIdeal.Points
import proofs.«174243_g2000104211638902_pallasbulk_653_6_alg».proof.Proof.Gen.KernelIdeal.Frame
import proofs.«174243_g2000104211638902_pallasbulk_653_6_alg».proof.Proof.Gen.ReferenceIdeal
import proofs.«174243_g2000104211638902_pallasbulk_653_6_alg».proof.Proof.Gen.ReferenceIdeal.Skeleton
import proofs.«174243_g2000104211638902_pallasbulk_653_6_alg».proof.Proof.Gen.ReferenceIdeal.Launch
import proofs.«174243_g2000104211638902_pallasbulk_653_6_alg».proof.Proof.Gen.ReferenceIdeal.Points
import proofs.«174243_g2000104211638902_pallasbulk_653_6_alg».proof.Proof.Gen.ReferenceIdeal.Frame
import proofs.«174243_g2000104211638902_pallasbulk_653_6_alg».proof.Proof.Gen.Pre_finite_inputs
import proofs.«174243_g2000104211638902_pallasbulk_653_6_alg».proof.Proof.Gen.KernelIdeal.Value
import proofs.«174243_g2000104211638902_pallasbulk_653_6_alg».proof.Proof.Gen.ReferenceIdeal.Value
import proofs.«174243_g2000104211638902_pallasbulk_653_6_alg».proof.Proof.KernelTiles
import proofs.«174243_g2000104211638902_pallasbulk_653_6_alg».proof.Proof.ReferenceTiles
import Idealize.ShloMosaic.Adequacy
import Idealize.ShloMosaic.Init

noncomputable section

namespace Cert.Proof

open Idealize.ShloMosaic Idealize.SL.Sem

/-- Each program runs to the end with its arguments unchanged. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both result arrays end at the network of the argument arrays, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Tiles.run m' ρ')
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
